-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_2beta" .f32 0x3FD55555#32 ((8388608 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048x1 : Shape := ⟨3, ![16384, 2048, 1]⟩
abbrev S16384x2048 : Shape := ⟨2, ![16384, 2048]⟩
abbrev S2048x2048 : Shape := ⟨2, ![2048, 2048]⟩
abbrev S_ : Shape := ⟨0, ![]⟩

class Facts : Prop where
  bcast_S_S16384x2048x1 : S_.BroadcastsInDim S16384x2048x1 (![] : Fin 0 → Fin S16384x2048x1.rank)
  reducesTo_S16384x2048x1_S_d0_1_2 : S16384x2048x1.ReducesTo [0, 1, 2] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x2048x1 .f32) (main_arg1 : FVec F S16384x2048 .f32) (main_arg2 : FVec F S16384x2048 .f32) (main_arg3 : IVec S2048x2048 32) : IVec S_ 1 :=
  let main_v0 : FVec F S16384x2048x1 .f32 := Host.absf main_arg0
  let main_cst : FVec F S_ .f32 := constant S_ .f32 0x7F800000#32
  let main_v1 : FVec F S16384x2048x1 .f32 := broadcastInDim S16384x2048x1 ![] bcast_S_S16384x2048x1 main_cst
  let main_v2 : IVec S16384x2048x1 1 := cmpf .olt main_v0 main_v1
  let main_c : IVec S_ 1 := constantI S_ 1 1#1
  let main_v3 : IVec S_ 1 := (fun x v => Host.reduce IntOp.andi x v reducesTo_S16384x2048x1_S_d0_1_2 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  main_v13
-- ==== Kernel.lean ====
abbrev S16384x2048x1 : Shape := ⟨3, ![16384, 2048, 1]⟩
abbrev S16384x2048 : Shape := ⟨2, ![16384, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S2x8x128 : Shape := ⟨3, ![2, 8, 128]⟩
abbrev S512x2048 : Shape := ⟨2, ![512, 2048]⟩
abbrev S1x8x128 : Shape := ⟨3, ![1, 8, 128]⟩
abbrev S16x128 : Shape := ⟨2, ![16, 128]⟩
abbrev S8x128 : Shape := ⟨2, ![8, 128]⟩

abbrev nBuf : Space → Nat
  | .hbm => 39
  | .vmem => 13
  | .smem => 0
  | _ => 0

abbrev bufTy : (tb : Table) → Fin (tcTables nBuf tb) → BufTy
  | .hbm, ⟨0, _⟩ => ⟨S16384x2048x1, .f32⟩
  | .hbm, ⟨1, _⟩ => ⟨S16384x2048, .f32⟩
  | .hbm, ⟨2, _⟩ => ⟨S16384x2048, .f32⟩
  | .hbm, ⟨3, _⟩ => ⟨S2048x2048, .i32⟩
  | .hbm, ⟨4, _⟩ => ⟨S16384x2048, .f32⟩
  | .hbm, ⟨5, _⟩ => ⟨S_, .i32⟩
  | .hbm, ⟨6, _⟩ => ⟨S2048x2048, .i32⟩
  | .hbm, ⟨7, _⟩ => ⟨S2048x2048, .i1⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .i1⟩
  | .hbm, ⟨14, _⟩ => ⟨S_, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048x2048, .f32⟩
  | .hbm, ⟨25, _⟩ => ⟨S2048x2048, .bf16⟩
  | .hbm, ⟨26, _⟩ => ⟨S2x8x128, .f32⟩
  | .hbm, ⟨27, _⟩ => ⟨S2x8x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | _, _ => ⟨S16384x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S16384x2048x1_S16384x2048 : S16384x2048x1.ShapeCasts S16384x2048
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  shapeCasts_S2048_S1x2048 : S2048.ShapeCasts S1x2048
  transposes_S2048x2048_S2048x2048_1_0 : S2048x2048.Transposes [1, 0] S2048x2048
  bitsLt_bf16_f32 : FTy.bits .bf16 < FTy.bits .f32
  inb_S1x8x128_S1x8x128_0_0_0 : ∀ a, (![0, 0, 0] : Fin 3 → Nat) a + S1x8x128.size a ≤ S1x8x128.size a
  h_S1x8x128 : 0 < S1x8x128.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S2048 : S512x2048.Reduces [0] S2048
  shapeCasts_S2048_S16x128 : S2048.ShapeCasts S16x128
  slices_S16x128_o0_0_S8x128 : S16x128.Slices ![0, 0] S8x128
  slices_S16x128_o8_0_S8x128 : S16x128.Slices ![8, 0] S8x128
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2048x1 : Shape := ⟨3, ![16384, 2048, 1]⟩
abbrev S16384x2048 : Shape := ⟨2, ![16384, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048x1, .f32⟩
  | .hbm, ⟨1, _⟩ => ⟨S16384x2048, .f32⟩
  | .hbm, ⟨2, _⟩ => ⟨S16384x2048, .f32⟩
  | .hbm, ⟨3, _⟩ => ⟨S2048x2048, .i32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .i1⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384x2048, .f32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .i1⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .i1⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S_, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S16384x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_cst_9 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_call3_v0 : Ref sig .tc := ⟨.hbm, 65, rfl⟩
abbrev main_call3_v1 : Ref sig .tc := ⟨.hbm, 66, rfl⟩
abbrev main_v33 : Ref sig .tc := ⟨.hbm, 67, rfl⟩
abbrev main_cst_11 : Ref sig .tc := ⟨.hbm, 68, rfl⟩
abbrev main_v34 : Ref sig .tc := ⟨.hbm, 69, rfl⟩
abbrev main_cst_12 : Ref sig .tc := ⟨.hbm, 70, rfl⟩
abbrev main_v35 : Ref sig .tc := ⟨.hbm, 71, rfl⟩
abbrev main_cst_13 : Ref sig .tc := ⟨.hbm, 72, rfl⟩
abbrev main_v36 : Ref sig .tc := ⟨.hbm, 73, rfl⟩
abbrev main_v37 : Ref sig .tc := ⟨.hbm, 74, rfl⟩

abbrev nD : Nat := 1
abbrev τ : Topo := Topo.v7x

variable {F : FTy → Type} [FloatOps F]

class Facts₀ : Prop where
  shapeCasts_S16384x2048x1_S16384x2048 : S16384x2048x1.ShapeCasts S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S2048_d0 : S16384x2048.ReducesTo [0] S2048
  reducesTo_S2048_S_d0 : S2048.ReducesTo [0] S_
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.Algebra.lean ====
/-
  THE TILING IDENTITY, on the extended reals, with no program in sight.

  A [16384, 2048] array `F` is cut into 32 row tiles of 512 rows. For each tile, each column's 512 entries are summed,
  the 2048 column sums are laid out as 16 groups of 128 lanes, and group `r + 8` is added onto group `r` (`tile`). Two
  accumulators, one per half of the tiles, each add up their 16 tiles in order (`acc`). Adding up every entry of both
  accumulators gives the sum of every entry of `F`: the extended reals under addition are a commutative monoid, so no
  order or grouping matters and no finiteness is needed.
-/
import proofs.«122916_j39651138077317_2_alg».proof.Proof.LibFiniteSums

noncomputable section

open scoped BigOperators

namespace Cert.Algebra

open Cert.LibFiniteSums

/-! ## The tiling identity -/

section Tiling

variable (F : Fin 16384 → Fin 2048 → EReal)

/-- Row `b` of tile `t`. -/
def row (t : Fin 32) (b : Fin 512) : Fin 16384 := ⟨b.val + 512 * t.val, by have := t.isLt; have := b.isLt; omega⟩
/-- Lane `l` of lane group `r + 8 * h`. -/
def col (h : Fin 2) (r : Fin 8) (l : Fin 128) : Fin 2048 :=
  ⟨l.val + 128 * (r.val + 8 * h.val), by have := h.isLt; have := r.isLt; have := l.isLt; omega⟩

/-- What one tile adds to entry `(r, l)` of its accumulator: the column sums of lane groups `r` and `r + 8`. -/
def tile (t : Fin 32) (r : Fin 8) (l : Fin 128) : EReal :=
  ∑ b : Fin 512, F (row t b) (col 0 r l) + ∑ b : Fin 512, F (row t b) (col 1 r l)

/-- The same with the tile's number a natural number (zero past the last tile). -/
def tileN (t : ℕ) (r : Fin 8) (l : Fin 128) : EReal := if h : t < 32 then tile F ⟨t, h⟩ r l else 0

theorem tileN_val (t : Fin 32) (r : Fin 8) (l : Fin 128) : tileN F t.val r l = tile F t r l := by
  unfold tileN; rw [dif_pos t.isLt]

/-- The accumulator after grid point `n`: the tiles of `n`'s half from the half's first up to `n`. -/
def acc (n : ℕ) (r : Fin 8) (l : Fin 128) : EReal :=
  ∑ i ∈ Finset.range (n % 16 + 1), tileN F (n - n % 16 + i) r l

/-- At the first point of a half the accumulator is that point's tile. -/
theorem acc_first (n : ℕ) (h : n % 16 = 0) (r : Fin 8) (l : Fin 128) : acc F n r l = tileN F n r l := by
  unfold acc; rw [h]; simp

/-- At any other point it is the previous point's accumulator plus the point's tile. -/
theorem acc_step (n : ℕ) (h : ¬n % 16 = 0) (r : Fin 8) (l : Fin 128) :
    acc F n r l = acc F (n - 1) r l + tileN F n r l := by
  unfold acc
  have h1 : (n - 1) % 16 + 1 = n % 16 := by omega
  have h2 : n - 1 - (n - 1) % 16 = n - n % 16 := by omega
  rw [Finset.sum_range_succ, h1, h2]
  congr 2
  omega

/-- After the last point of half `c0` it holds the half's sixteen tiles. -/
theorem acc_last (c0 : Fin 2) (r : Fin 8) (l : Fin 128) :
    acc F (16 * c0.val + 15) r l
      = ∑ i : Fin 16, tile F ⟨i.val + 16 * c0.val, by have := c0.isLt; have := i.isLt; omega⟩ r l := by
  unfold acc
  have h1 : (16 * c0.val + 15) % 16 + 1 = 16 := by omega
  have h2 : 16 * c0.val + 15 - (16 * c0.val + 15) % 16 = 16 * c0.val := by omega
  rw [h1, h2, Finset.sum_range]
  refine Finset.sum_congr rfl fun i _ => ?_
  have := c0.isLt
  have := i.isLt
  unfold tileN
  rw [dif_pos (by omega)]
  congr 2
  omega

/-- Every entry of both accumulators, added up, is every entry of the array, added up. -/
theorem total :
    ∑ c0 : Fin 2, ∑ r : Fin 8, ∑ l : Fin 128, acc F (16 * c0.val + 15) r l = ∑ b : Fin 16384, ∑ z : Fin 2048, F b z := by
  -- the right side, cut into (half, tile, row) and (group half, group, lane)
  have hz : ∀ b : Fin 16384, ∑ z : Fin 2048, F b z
      = ∑ r : Fin 8, ∑ l : Fin 128, (F b (col 0 r l) + F b (col 1 r l)) := by
    intro b
    rw [sum_split 16 128 2048 rfl (fun z => F b z)]
    rw [sum_split 2 8 16 rfl (fun q : Fin 16 => ∑ l : Fin 128, F b ⟨l.val + 128 * q.val, _⟩)]
    rw [Fin.sum_univ_two, ← Finset.sum_add_distrib]
    refine Finset.sum_congr rfl fun r _ => ?_
    rw [← Finset.sum_add_distrib]
    rfl
  have hb : ∑ b : Fin 16384, ∑ z : Fin 2048, F b z
      = ∑ c0 : Fin 2, ∑ i : Fin 16, ∑ b : Fin 512, ∑ r : Fin 8, ∑ l : Fin 128,
          (F (row ⟨i.val + 16 * c0.val, by have := c0.isLt; have := i.isLt; omega⟩ b) (col 0 r l)
            + F (row ⟨i.val + 16 * c0.val, by have := c0.isLt; have := i.isLt; omega⟩ b) (col 1 r l)) := by
    rw [sum_split 32 512 16384 rfl (fun b => ∑ z : Fin 2048, F b z)]
    rw [sum_split 2 16 32 rfl (fun t : Fin 32 => ∑ b : Fin 512, ∑ z : Fin 2048, F ⟨b.val + 512 * t.val, _⟩ z)]
    refine Finset.sum_congr rfl fun c0 _ => Finset.sum_congr rfl fun i _ => Finset.sum_congr rfl fun b _ => ?_
    exact hz _
  rw [hb]
  refine Finset.sum_congr rfl fun c0 _ => ?_
  rw [← sum_comm4]
  refine Finset.sum_congr rfl fun r _ => Finset.sum_congr rfl fun l _ => ?_
  rw [acc_last]
  refine Finset.sum_congr rfl fun i _ => ?_
  unfold tile
  rw [← Finset.sum_add_distrib]

end Tiling

end Cert.Algebra

end
-- ==== Proof.Spec.lean ====
/-
  The two loss terms as functions of one entry, and the laws that join the two programs, on the extended reals.

  * `sl1 d`: the smooth-L1 term of a difference `d`, with the quadratic branch written as ONE multiplication by the
    constant (1/2) / β, where β is the binary value of the single-precision literal 0.3, that is 5033165 / 2^24.
    Dividing (1/2)·d·d by β is the same number: division by a non-zero real is multiplication by its reciprocal at
    every extended real, and multiplication is commutative and associative there (`sl1_quotient`).
  * `softplus x`: max(x, 0) + log(1 + exp(−|x|)). The log-add-exp form with its not-a-number test is the same
    function: no extended real differs from itself, x − 0 = x and 0 − y = −y (`softplus_logaddexp`).
  * a product with the reciprocal of a non-zero divisor is the quotient (`mul_div_one`), and the divisor
    "the degree if it is positive, else 1" is never zero (`safe_ne_zero`).
  * the mean over zones of the masked per-zone batch means is the masked total over 2^25 (`masked_mean`): a
    positive real factor distributes over any finite sum of extended reals, and a 0/1 mask either keeps a term or
    replaces it by 0 on both sides.
-/
import Idealize.ShloMosaic.PureOps.Ideal
import Idealize.ShloMosaic.PureOps.Ideal.Laws
import proofs.«122916_j39651138077317_2_alg».proof.Proof.Algebra

noncomputable section

open scoped BigOperators

namespace Cert.Spec

open Idealize.ShloMosaic

/-! ## The literals both programs spell -/

theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_beta : Ideal.ofBits .f32 0x3E99999A#32 = ((5033165 / 16777216 : ℝ) : EReal) := by
  simp [Ideal.ofBits, Ideal.ieee, -EReal.coe_mul]; norm_num
theorem ofBits_n25 : Ideal.ofBits .f32 0x4C000000#32 = ((33554432 : ℝ) : EReal) := by
  simp [Ideal.ofBits, Ideal.ieee, -EReal.coe_mul]; norm_num
theorem ofBits_n14 : Ideal.ofBits .f32 0x46800000#32 = ((16384 : ℝ) : EReal) := by
  simp [Ideal.ofBits, Ideal.ieee, -EReal.coe_mul]; norm_num
theorem ofBits_n11 : Ideal.ofBits .f32 0x45000000#32 = ((2048 : ℝ) : EReal) := by
  simp [Ideal.ofBits, Ideal.ieee, -EReal.coe_mul]; norm_num

/-! ## One entry -/

/-- The smooth-L1 term of a difference `d`: (1/2)/β · d · d where |d| < β, else |d| − β/2 (the two thresholds as the
    literals both programs carry). -/
def sl1 (d : EReal) : EReal :=
  Scalar.select (Ideal.cmp .olt (max d (-d)) (Ideal.ofBits .f32 0x3E99999A#32))
    ((((8388608 / 5033165 : ℝ) : EReal) * d) * d)
    (max d (-d) - Ideal.ofBits .f32 0x3E19999A#32)

/-- Dividing (1/2)·d·d by β is multiplying d·d by (1/2)/β. -/
theorem sl1_quotient (d : EReal) :
    Ideal.div ((Ideal.ofBits .f32 0x3F000000#32 * d) * d) (Ideal.ofBits .f32 0x3E99999A#32)
      = (((8388608 / 5033165 : ℝ) : EReal) * d) * d := by
  rw [ofBits_half, ofBits_beta, Ideal.div_coe (by norm_num)]
  have key : ((8388608 / 5033165 : ℝ) : EReal) = ((1 / 2 : ℝ) : EReal) * ((1 / (5033165 / 16777216) : ℝ) : EReal) := by
    rw [← EReal.coe_mul]; congr 1; norm_num
  rw [key, mul_right_comm, mul_right_comm ((1 / 2 : ℝ) : EReal) d]

/-- Softplus as max(x, 0) + log(1 + exp(−|x|)), zero and one as the literals the kernel carries. -/
def softplus (x : EReal) : EReal :=
  max x (Ideal.ofBits .f32 0x00000000#32)
    + Ideal.log (Ideal.ofBits .f32 0x3F800000#32 + Ideal.exp (Ideal.ofBits .f32 0x00000000#32 - max x (-x)))

/-- The log-add-exp form of softplus against zero, with its self-comparison guard, is the same function. -/
theorem softplus_logaddexp (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = softplus x := by
  unfold softplus Ideal.log1p
  rw [ofBits_zero, ofBits_one, sub_zero, zero_sub]
  have h : Ideal.cmp .une x x = 0#1 := by simp [Ideal.cmp]
  rw [h]
  exact if_neg (by decide)

/-! ## The neighbour mean's divisor -/

/-- A product with the reciprocal of a non-zero divisor is the quotient by it. -/
theorem mul_div_one (m s : EReal) (hs : s ≠ 0) :
    m * Ideal.div (Ideal.ofBits .f32 0x3F800000#32) s = Ideal.div m s := by
  unfold Ideal.div
  rw [if_neg hs, if_neg hs, ofBits_one, one_mul]

/-- "The degree where it is positive, one elsewhere" is not zero. -/
theorem safe_ne_zero (deg : EReal) :
    Scalar.select (Ideal.cmp .ogt deg (Ideal.ofBits .f32 0x00000000#32)) deg (Ideal.ofBits .f32 0x3F800000#32) ≠ 0 := by
  rw [ofBits_zero, ofBits_one]
  unfold Scalar.select
  by_cases h : (0 : EReal) < deg
  · have hc : Ideal.cmp .ogt deg 0 = 1#1 := by simp [Ideal.cmp, h]
    rw [hc, if_pos (by decide)]
    exact h.ne'
  · have hc : Ideal.cmp .ogt deg 0 = 0#1 := by simp [Ideal.cmp, h]
    rw [hc, if_neg (by decide)]
    exact one_ne_zero

/-! ## The masked mean -/

/-- A one-bit flag as a number. -/
def flag (b : BitVec 1) : EReal := ((b.toNat : ℝ) : EReal)

theorem flag_one : flag 1#1 = 1 := by simp [flag]
theorem flag_zero : flag 0#1 = 0 := by simp [flag]

theorem bit_cases (b : BitVec 1) : b = 1#1 ∨ b = 0#1 := by
  by_cases h : b = 1#1
  · exact Or.inl h
  · refine Or.inr ?_
    have := b.isLt
    apply BitVec.eq_of_toNat_eq
    have h' : b.toNat ≠ 1 := fun e => h (BitVec.eq_of_toNat_eq e)
    simp only [BitVec.toNat_ofNat]
    omega

/-- The mean over the 2048 zones of the per-zone batch means, a zone without neighbours counted as 0, is the total of
    the flag-weighted entries over 2^25: nothing is assumed of the entries. -/
theorem masked_mean (hn : Fin 2048 → BitVec 1) (V : Fin 16384 → Fin 2048 → EReal) :
    Ideal.div (Ideal.ofBits .f32 0x00000000#32
        + ∑ z : Fin 2048, Scalar.select (hn z)
            (Ideal.div (Ideal.ofBits .f32 0x00000000#32 + ∑ b : Fin 16384, V b z) (Ideal.ofBits .f32 0x46800000#32))
            (Ideal.ofBits .f32 0x00000000#32))
        (Ideal.ofBits .f32 0x45000000#32)
      = Ideal.div (Ideal.ofBits .f32 0x00000000#32 + ∑ b : Fin 16384, ∑ z : Fin 2048, V b z * flag (hn z))
          (Ideal.ofBits .f32 0x4C000000#32) := by
  rw [ofBits_zero, ofBits_n14, ofBits_n11, ofBits_n25, Ideal.div_coe (by norm_num), Ideal.div_coe (by norm_num),
    zero_add, zero_add]
  have hz : ∀ z : Fin 2048,
      Scalar.select (hn z) (Ideal.div (0 + ∑ b : Fin 16384, V b z) ((16384 : ℝ) : EReal)) 0
        = (∑ b : Fin 16384, V b z * flag (hn z)) * ((1 / 16384 : ℝ) : EReal) := by
    intro z
    rw [Ideal.div_coe (by norm_num), zero_add]
    rcases bit_cases (hn z) with h | h
    · rw [h, flag_one]
      simp only [mul_one]
      exact if_pos rfl
    · rw [h, flag_zero]
      simp only [mul_zero, Finset.sum_const_zero, zero_mul]
      exact if_neg (by decide)
  rw [Finset.sum_congr rfl fun z _ => hz z, ← LibFiniteSums.sum_mul_coe _ _ (by norm_num), mul_assoc, ← EReal.coe_mul,
    Finset.sum_comm]
  congr 2
  norm_num

/-! ## The two results as functions of the four arrays -/

section Results

/-- The smooth-L1 term of entry (b, z): predictions against targets. -/
def A (P Tg : Fin 16384 → Fin 2048 → EReal) (b : Fin 16384) (z : Fin 2048) : EReal := sl1 (P b z - Tg b z)

/-- The weighted physics term of entry (b, z): softplus of (T − neighbour sum · reciprocal degree) · (P − T), times the
    zone's flag; `Wm n z` is the neighbour matrix, `Sr` the row of reciprocal degrees, `Hf` the row of flags. -/
def Wt (P Tm : Fin 16384 → Fin 2048 → EReal) (Wm : Fin 2048 → Fin 2048 → EReal) (Sr Hf : Fin 2048 → EReal)
    (b : Fin 16384) (z : Fin 2048) : EReal :=
  softplus ((Tm b z - (∑ n : Fin 2048, Tm b n * Wm n z) * Sr z) * (P b z - Tm b z)) * Hf z

variable (Mk : Fin 2048 → Fin 2048 → EReal)

/-- Zone `z`'s degree: the sum of row `z` of the 0/1 mask (from the literal zero, as both programs sum it). -/
def deg (z : Fin 2048) : EReal := Ideal.ofBits .f32 0x00000000#32 + ∑ n : Fin 2048, Mk z n
/-- Whether zone `z` has a neighbour. -/
def hasNb (z : Fin 2048) : BitVec 1 := Ideal.cmp .ogt (deg Mk z) (Ideal.ofBits .f32 0x00000000#32)
/-- The degree where positive, one elsewhere. -/
def safeDeg (z : Fin 2048) : EReal := Scalar.select (hasNb Mk z) (deg Mk z) (Ideal.ofBits .f32 0x3F800000#32)

/-- The physics loss: the flag-weighted softplus terms, added up and divided by 2^25. -/
def lossPhys (P Tm : Fin 16384 → Fin 2048 → EReal) : EReal :=
  Ideal.div (Ideal.ofBits .f32 0x00000000#32
      + ∑ b : Fin 16384, ∑ z : Fin 2048,
          Wt P Tm (fun n z => Mk z n) (fun z => Ideal.div (Ideal.ofBits .f32 0x3F800000#32) (safeDeg Mk z))
            (fun z => flag (hasNb Mk z)) b z)
    (Ideal.ofBits .f32 0x4C000000#32)

/-- The total loss: the mean smooth-L1 term plus 0.15 (as the literal) times the physics loss. -/
def lossTotal (P Tg Tm : Fin 16384 → Fin 2048 → EReal) : EReal :=
  Ideal.div (Ideal.ofBits .f32 0x00000000#32 + ∑ b : Fin 16384, ∑ z : Fin 2048, A P Tg b z) (Ideal.ofBits .f32 0x4C000000#32)
    + Ideal.ofBits .f32 0x3E19999A#32 * lossPhys Mk P Tm

end Results

end Cert.Spec

end
-- ==== Proof.RefValue.lean ====
/-
  The reference's two results as the functions `Spec.lossTotal` and `Spec.lossPhys` of its four arguments.

  Read one operation at a time, the reference computes,
  with d = P − Tg:  the smooth-L1 term whose quadratic branch is ((1/2)·d)·d / β — the product with (1/2)/β;
  the neighbour mean as the contraction ∑ₙ T(b,n)·mask(z,n) DIVIDED by the safe degree — the product with its
  reciprocal, the divisor never being zero; softplus in its log-add-exp form with the self-comparison guard — the
  plain form; and the physics loss as the mean over zones of the masked per-zone batch means — the masked total
  over 2^25.
-/
import proofs.«122916_j39651138077317_2_alg».proof.Proof.RefReadP
import proofs.«122916_j39651138077317_2_alg».proof.Proof.Spec
import Idealize.ShloMosaic.Lib.ValueIdx
import Idealize.ShloMosaic.Lib.ValueLayout
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.ReadP Cert.LibFiniteSums

variable (x0 : (⟨S16384x2048x1, .f32⟩ : BufTy).Contents (Elt Ideal)) (x1 x2 : (⟨S16384x2048, .f32⟩ : BufTy).Contents (Elt Ideal)) (x3 : (⟨S2048x2048, .i32⟩ : BufTy).Contents (Elt Ideal))

/-! ## The arguments as functions of (batch row, zone) -/

def P (b : Fin 16384) (z : Fin 2048) : EReal := x0 (ix3 b z (0 : Fin 1))
def Tg (b : Fin 16384) (z : Fin 2048) : EReal := x1 (ix2 b z)
def Tm (b : Fin 16384) (z : Fin 2048) : EReal := x2 (ix2 b z)
/-- The mask's entry (z, n): 1 where the adjacency entry is positive, else 0. -/
def Mk (z n : Fin 2048) : EReal := Spec.flag (IntOp.cmpi .sgt (x3 (ix2 z n)) 0#32)

/-! ## The stages, entry by entry -/

theorem v0_at (b : Fin 16384) (z : Fin 2048) : val_main_v0 (F := Ideal) x0 (ix2 b z) = P x0 b z := by
  rw [val_main_v0_apply]
  exact congrArg x0 (funext fun a => Fin.ext (by
    have hb := b.isLt
    have hz := z.isLt
    match a with
    | ⟨0, _⟩ => show (b.val * 2048 + z.val) / 2048 = b.val; omega
    | ⟨1, _⟩ => show (b.val * 2048 + z.val) / 1 % 2048 = z.val; omega
    | ⟨2, _⟩ => rfl))

theorem mask_at (z n : Fin 2048) : val_main_v18 (F := Ideal) x3 (ix2 z n) = Mk x3 z n := by
  show FloatOps.uitofp (F := Ideal) .f32 (IntOp.cmpi .sgt (x3 (ix2 z n)) (val_main_v16 (F := Ideal) (ix2 z n))) = _
  rw [val_main_v16_apply]
  rfl

theorem deg_at (z : Fin 2048) : val_main_v19 (F := Ideal) x3 (ix1 z) = Spec.deg (Mk x3) z := by
  rw [val_main_v19_apply]
  unfold Spec.deg
  refine congrArg₂ (· + ·) rfl (Finset.sum_congr rfl fun k _ => ?_)
  exact (congrArg (val_main_v18 (F := Ideal) x3) (funext fun a => Fin.ext (by
    match a with | ⟨0, _⟩ => rfl | ⟨1, _⟩ => rfl))).trans (mask_at x3 z k)

theorem hn_at (z : Fin 2048) : val_main_v21 (F := Ideal) x3 (ix1 z) = Spec.hasNb (Mk x3) z := by
  show Ideal.cmp .ogt (val_main_v19 (F := Ideal) x3 (ix1 z)) (val_main_v20 (F := Ideal) (ix1 z)) = _
  rw [deg_at, val_main_v20_apply]
  rfl

theorem sd_at (z : Fin 2048) : val_main_v22 (F := Ideal) x3 (ix1 z) = Spec.safeDeg (Mk x3) z := by
  show Scalar.select (val_main_v21 (F := Ideal) x3 (ix1 z)) (val_main_v19 (F := Ideal) x3 (ix1 z))
    (val_main_call1_v1 (F := Ideal) (ix1 z)) = _
  rw [hn_at, deg_at, val_main_call1_v1_apply]
  rfl

theorem v25_at (b : Fin 16384) (z : Fin 2048) : val_main_v25 (F := Ideal) x3 (ix2 b z) = Spec.safeDeg (Mk x3) z := by
  rw [val_main_v25_apply, val_main_v24_apply]
  exact (congrArg (val_main_v22 (F := Ideal) x3) (funext fun a => Fin.ext (by
    match a with | ⟨0, _⟩ => rfl))).trans (sd_at x3 z)

theorem dot_at (b : Fin 16384) (z : Fin 2048) :
    val_main_v23 (F := Ideal) x2 x3 (ix2 b z) = ∑ n : Fin 2048, Tm x2 b n * Mk x3 z n := by
  rw [val_main_v23_apply]
  refine Finset.sum_congr rfl fun k _ => congrArg₂ (· * ·) ?_ ?_
  · exact congrArg x2 (funext fun a => Fin.ext (by match a with | ⟨0, _⟩ => rfl | ⟨1, _⟩ => rfl))
  · exact (congrArg (val_main_v18 (F := Ideal) x3) (funext fun a => Fin.ext (by
      match a with | ⟨0, _⟩ => rfl | ⟨1, _⟩ => rfl))).trans (mask_at x3 z k)

/-- The softplus argument of entry (b, z), in the product-with-reciprocal form. -/
def X (b : Fin 16384) (z : Fin 2048) : EReal :=
  (Tm x2 b z - (∑ n : Fin 2048, Tm x2 b n * Mk x3 z n)
      * Ideal.div (Ideal.ofBits .f32 0x3F800000#32) (Spec.safeDeg (Mk x3) z)) * (P x0 b z - Tm x2 b z)

theorem x_at (b : Fin 16384) (z : Fin 2048) : val_main_v28 (F := Ideal) x0 x2 x3 (ix2 b z) = X x0 x2 x3 b z := by
  have e := Spec.mul_div_one (∑ n : Fin 2048, Tm x2 b n * Mk x3 z n) (Spec.safeDeg (Mk x3) z) (Spec.safe_ne_zero _)
  show (x2 (ix2 b z) - Ideal.div (val_main_v23 (F := Ideal) x2 x3 (ix2 b z)) (val_main_v25 (F := Ideal) x3 (ix2 b z)))
    * (val_main_v0 (F := Ideal) x0 (ix2 b z) - x2 (ix2 b z)) = _
  rw [dot_at, v25_at, v0_at, ← e]
  rfl

theorem softplus_at (b : Fin 16384) (z : Fin 2048) :
    val_main_v29 (F := Ideal) x0 x2 x3 (ix2 b z) = Spec.softplus (X x0 x2 x3 b z) := by
  rw [← x_at, ← Spec.softplus_logaddexp]
  show Scalar.select
      (Ideal.cmp .une (val_main_v28 (F := Ideal) x0 x2 x3 (ix2 b z) - val_main_call2_v2 (F := Ideal) (ix2 b z))
        (val_main_v28 (F := Ideal) x0 x2 x3 (ix2 b z) - val_main_call2_v2 (F := Ideal) (ix2 b z)))
      (val_main_v28 (F := Ideal) x0 x2 x3 (ix2 b z) + val_main_call2_v5 (F := Ideal) (ix2 b z))
      (max (val_main_v28 (F := Ideal) x0 x2 x3 (ix2 b z)) (val_main_call2_v0 (F := Ideal) (ix2 b z))
        + Ideal.log1p (Ideal.exp (-(max (val_main_v28 (F := Ideal) x0 x2 x3 (ix2 b z) - val_main_call2_v2 (F := Ideal) (ix2 b z))
            (-(val_main_v28 (F := Ideal) x0 x2 x3 (ix2 b z) - val_main_call2_v2 (F := Ideal) (ix2 b z))))))) = _
  rw [val_main_call2_v0_apply, val_main_call2_v2_apply, val_main_call2_v5_apply]
  rfl

theorem v30_at (z : Fin 2048) :
    val_main_v30 (F := Ideal) x0 x2 x3 (ix1 z)
      = Ideal.ofBits .f32 0x00000000#32 + ∑ b : Fin 16384, Spec.softplus (X x0 x2 x3 b z) := by
  rw [val_main_v30_apply]
  refine congrArg₂ (· + ·) rfl (Finset.sum_congr rfl fun k _ => ?_)
  exact (congrArg (val_main_v29 (F := Ideal) x0 x2 x3) (funext fun a => Fin.ext (by
    match a with | ⟨0, _⟩ => rfl | ⟨1, _⟩ => rfl))).trans (softplus_at x0 x2 x3 k z)

theorem v33_at (z : Fin 2048) :
    val_main_v33 (F := Ideal) x0 x2 x3 (ix1 z)
      = Scalar.select (Spec.hasNb (Mk x3) z)
          (Ideal.div (Ideal.ofBits .f32 0x00000000#32 + ∑ b : Fin 16384, Spec.softplus (X x0 x2 x3 b z))
            (Ideal.ofBits .f32 0x46800000#32))
          (Ideal.ofBits .f32 0x00000000#32) := by
  show Scalar.select (val_main_v21 (F := Ideal) x3 (ix1 z))
    (Ideal.div (val_main_v30 (F := Ideal) x0 x2 x3 (ix1 z)) (val_main_v31 (F := Ideal) (ix1 z)))
    (val_main_call3_v1 (F := Ideal) (ix1 z)) = _
  rw [hn_at, v30_at, val_main_v31_apply, val_main_call3_v1_apply]
  rfl

/-- The reference's second result is the physics loss. -/
theorem phys_eq (i : S_.Idx) : val_main_v35 (F := Ideal) x0 x2 x3 i = Spec.lossPhys (Mk x3) (P x0) (Tm x2) := by
  have h := Spec.masked_mean (fun z => Spec.hasNb (Mk x3) z) (fun b z => Spec.softplus (X x0 x2 x3 b z))
  have e : val_main_v35 (F := Ideal) x0 x2 x3 i
      = Ideal.div (Ideal.ofBits .f32 0x00000000#32 + ∑ z : Fin 2048, val_main_v33 (F := Ideal) x0 x2 x3 (ix1 z))
          (Ideal.ofBits .f32 0x45000000#32) := by
    show Ideal.div (val_main_v34 (F := Ideal) x0 x2 x3 i) (Ideal.ofBits .f32 0x45000000#32) = _
    rw [val_main_v34_apply, sum_idx1]
    rfl
  rw [e]
  simp only [v33_at]
  refine h.trans ?_
  unfold Spec.lossPhys Spec.Wt X
  rfl

theorem sl1_at (b : Fin 16384) (z : Fin 2048) : val_main_v12 (F := Ideal) x0 x1 (ix2 b z) = Spec.A (P x0) (Tg x1) b z := by
  have hq := Spec.sl1_quotient (P x0 b z - Tg x1 b z)
  unfold Spec.A Spec.sl1
  rw [← hq, ← v0_at]
  show Scalar.select
      (Ideal.cmp .olt (max (val_main_v0 (F := Ideal) x0 (ix2 b z) - x1 (ix2 b z)) (-(val_main_v0 (F := Ideal) x0 (ix2 b z) - x1 (ix2 b z))))
        (val_main_v3 (F := Ideal) (ix2 b z)))
      (Ideal.div ((val_main_v5 (F := Ideal) (ix2 b z) * (val_main_v0 (F := Ideal) x0 (ix2 b z) - x1 (ix2 b z)))
          * (val_main_v0 (F := Ideal) x0 (ix2 b z) - x1 (ix2 b z))) (val_main_v8 (F := Ideal) (ix2 b z)))
      (max (val_main_v0 (F := Ideal) x0 (ix2 b z) - x1 (ix2 b z)) (-(val_main_v0 (F := Ideal) x0 (ix2 b z) - x1 (ix2 b z)))
        - val_main_v10 (F := Ideal) (ix2 b z)) = _
  rw [val_main_v3_apply, val_main_v5_apply, val_main_v8_apply, val_main_v10_apply]
  rfl

/-- The reference's first result is the total loss. -/
theorem total_eq (i : S_.Idx) :
    val_main_v37 (F := Ideal) x0 x1 x2 x3 i = Spec.lossTotal (Mk x3) (P x0) (Tg x1) (Tm x2) := by
  have e : val_main_v37 (F := Ideal) x0 x1 x2 x3 i
      = Ideal.div (Ideal.ofBits .f32 0x00000000#32
            + ∑ b : Fin 16384, ∑ z : Fin 2048, val_main_v12 (F := Ideal) x0 x1 (ix2 b z))
          (Ideal.ofBits .f32 0x4C000000#32)
        + Ideal.ofBits .f32 0x3E19999A#32 * val_main_v35 (F := Ideal) x0 x2 x3 i := by
    show Ideal.div (val_main_v13 (F := Ideal) x0 x1 i) (Ideal.ofBits .f32 0x4C000000#32)
      + Ideal.ofBits .f32 0x3E19999A#32 * val_main_v35 (F := Ideal) x0 x2 x3 i = _
    rw [val_main_v13_apply, sum_idx2]
    rfl
  rw [e, phys_eq]
  simp only [sl1_at]
  rfl

end Cert.ReferenceIdeal.RefValue

end
-- ==== Proof.KernelPieces.lean ====
/-
  What one run of the kernel body leaves in its two output blocks, as values.

  The body loads the three [512, 2048] data blocks, the [2048, 2048] neighbour matrix and the two [1, 2048] rows,
  and ends with ONE store into each [1, 8, 128] output block: the block's previous contents plus this tile's folded
  column sums. At the first tile of a half the block is first overwritten with zeros, and the "previous contents"
  that the final store adds to are those zeros. So, with `sl1` the tile's smooth-L1 terms and `viol` its weighted
  softplus terms (the body's two pure payloads):
    first tile of a half:   block 6 := fold (sl1) + 0,          block 7 := fold (viol · has_nb) + 0
    any other tile:         block 6 := fold (sl1) + block 6,    block 7 := fold (viol · has_nb) + block 7.
  Stated for any float instance.
-/
import proofs.«122916_j39651138077317_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile, first output: the block's contents `xo6` plus the folded column sums of the smooth-L1 terms. -/
theorem out_B_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x8x128 .f32) (harg8 : arg8.IsWhole) (arg9 : Memref sig .tc .vmem S1x8x128 .f32) (harg9 : arg9.IsWhole) (hc0 : ¬cond0_0 i)
    (x0 : Vec F S512x2048 .f32) (x1 : Vec F S512x2048 .f32) (x2 : Vec F S512x2048 .f32) (x3 : Vec F S2048x2048 .bf16) (x4 : Vec F S1x2048 .f32) (x5 : Vec F S1x2048 .f32) (xo6 xo7 : Vec F S1x8x128 .f32) :
    out0_B_6 c i arg2 harg2 arg3 harg3 arg4 harg4 arg5 harg5 arg6 harg6 arg7 harg7 arg8 harg8 arg9 harg9 hc0 x0 x1 x2 x3 x4 x5 xo6 xo7 = k0_pay1 (k0_pay6 x0 x1) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz3]
  simp only [View.readAt_eq_ld, harg2.read_unread, harg3.read_unread, harg8.read_unread,
    View.ld_unit_zero (S := S512x2048) hz2, View.ld_unit_zero (S := S1x8x128) hz3]

/-- A later tile, second output: the block's contents `xo7` plus the folded column sums of the weighted softplus terms. -/
theorem out_B_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x8x128 .f32) (harg8 : arg8.IsWhole) (arg9 : Memref sig .tc .vmem S1x8x128 .f32) (harg9 : arg9.IsWhole) (hc0 : ¬cond0_0 i)
    (x0 : Vec F S512x2048 .f32) (x1 : Vec F S512x2048 .f32) (x2 : Vec F S512x2048 .f32) (x3 : Vec F S2048x2048 .bf16) (x4 : Vec F S1x2048 .f32) (x5 : Vec F S1x2048 .f32) (xo6 xo7 : Vec F S1x8x128 .f32) :
    out0_B_7 c i arg2 harg2 arg3 harg3 arg4 harg4 arg5 harg5 arg6 harg6 arg7 harg7 arg8 harg8 arg9 harg9 hc0 x0 x1 x2 x3 x4 x5 xo6 xo7 = k0_pay2 (k0_pay7 x0 x2 x3 x4) x5 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz3]
  simp only [View.readAt_eq_ld, harg2.read_unread, harg4.read_unread, harg5.read_unread, harg6.read_unread,
    harg7.read_unread, harg9.read_unread,
    View.ld_unit_zero (S := S512x2048) hz2, View.ld_unit_zero (S := S2048x2048) hz2,
    View.ld_unit_zero (S := S1x2048) hz2, View.ld_unit_zero (S := S1x8x128) hz3]

/-- The first tile of a half, first output: the zero block plus the folded column sums. -/
theorem out_A_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x8x128 .f32) (harg8 : arg8.IsWhole) (arg9 : Memref sig .tc .vmem S1x8x128 .f32) (harg9 : arg9.IsWhole) (hc0 : cond0_0 i)
    (x0 : Vec F S512x2048 .f32) (x1 : Vec F S512x2048 .f32) (x2 : Vec F S512x2048 .f32) (x3 : Vec F S2048x2048 .bf16) (x4 : Vec F S1x2048 .f32) (x5 : Vec F S1x2048 .f32) :
    out0_A_6 c i arg2 harg2 arg3 harg3 arg4 harg4 arg5 harg5 arg6 harg6 arg7 harg7 arg8 harg8 arg9 harg9 hc0 x0 x1 x2 x3 x4 x5 = k0_pay1 (k0_pay6 x0 x1) (k0_pay3 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S512x2048) hz2, View.ld_unit_zero (S := S1x8x128) hz3]

/-- The first tile of a half, second output: the zero block plus the folded column sums. -/
theorem out_A_7 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x8x128 .f32) (harg8 : arg8.IsWhole) (arg9 : Memref sig .tc .vmem S1x8x128 .f32) (harg9 : arg9.IsWhole) (hc0 : cond0_0 i)
    (x0 : Vec F S512x2048 .f32) (x1 : Vec F S512x2048 .f32) (x2 : Vec F S512x2048 .f32) (x3 : Vec F S2048x2048 .bf16) (x4 : Vec F S1x2048 .f32) (x5 : Vec F S1x2048 .f32) :
    out0_A_7 c i arg2 harg2 arg3 harg3 arg4 harg4 arg5 harg5 arg6 harg6 arg7 harg7 arg8 harg8 arg9 harg9 hc0 x0 x1 x2 x3 x4 x5 = k0_pay2 (k0_pay7 x0 x2 x3 x4) x5 (k0_pay4 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x8x128) hz3, View.readCov_unit_zero (S := S1x8x128) _ hz3]
  simp only [View.readAt_eq_ld, harg2.read_unread, harg4.read_unread, harg5.read_unread, harg6.read_unread,
    harg7.read_unread,
    View.ld_unit_zero (S := S512x2048) hz2, View.ld_unit_zero (S := S2048x2048) hz2,
    View.ld_unit_zero (S := S1x2048) hz2, View.ld_unit_zero (S := S1x8x128) hz3]

end Cert.KernelIdeal.Pieces

end
-- ==== Proof.KernelPayload.lean ====
/-
  The body's pure payloads read at one entry, on the extended reals.

  * the smooth-L1 payload at (b, z) is `Spec.sl1` of the difference of the first two data blocks there;
  * the softplus payload at (b, z) is `Spec.softplus` of
      (T(b,z) − (∑ₙ T(b,n)·W(n,z)) · s(z)) · (P(b,z) − T(b,z)),
    the block of temperatures `T`, the neighbour matrix `W` (the matrix product into a zero accumulator is that
    sum, and a change of float format is the identity), the row `s` of reciprocal degrees;
  * each final store's value at (0, r, l) is the block's previous value there plus the two column sums, over the 512
    rows of the tile, at lanes l + 128·r and l + 128·(r + 8) — the sum over the row axis, laid out as 16 groups of 128
    lanes, the upper eight groups added onto the lower eight.
-/
import proofs.«122916_j39651138077317_2_alg».proof.Proof.Gen.KernelIdeal.Skeleton
import proofs.«122916_j39651138077317_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators
open Idealize.ShloMosaic Idealize.ShloMosaic.ValueIdx

namespace Cert.KernelIdeal.Payload

open Cert.KernelIdeal Cert.KernelIdeal.Gen Cert.Algebra

/-- The named multiplier denotes (1/2)/β. -/
theorem named_inv :
    Named.named (F := Ideal) κ "inv_2beta" (φ := .f32) 0x3FD55555#32 = ((8388608 / 5033165 : ℝ) : EReal) :=
  IdealRules.named_const.ideal_named_scalar _ _ _ _ rfl

/-- The smooth-L1 payload, entry by entry. -/
theorem pay6_apply (v3 v5 : Vec Ideal S512x2048 .f32) (j : S512x2048.Idx) :
    k0_pay6 (F := Ideal) v3 v5 j = Spec.sl1 (v3 j - v5 j) := by
  unfold k0_pay6 k0_pay5 Spec.sl1
  simp only [shapeCast_self]
  show Scalar.select _ ((Named.named (F := Ideal) κ "inv_2beta" (φ := .f32) 0x3FD55555#32 * (v3 j - v5 j)) * (v3 j - v5 j)) _ = _
  rw [named_inv]
  rfl

/-- The operand indices of the kernel's matrix product: the left operand is read at (row of the output, contracted
    coordinate), the right operand at (contracted coordinate, column of the output). -/
theorem lhs_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl
theorem lhs_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The kernel's matrix product into the zero accumulator, at (b, z): the sum over the contracted axis. -/
theorem matmul_ix2 (lhs : FVec Ideal S512x2048 .bf16) (rhs : FVec Ideal S2048x2048 .bf16) (b : Fin 512) (z : Fin 2048) :
    matmul dot_S512x2048_S2048x2048_S512x2048_1_0_0_1_n_n none lhs rhs (constant S512x2048 .f32 0x00000000#32) (ix2 b z)
      = ∑ n : Fin 2048, lhs (ix2 b n) * rhs (ix2 n z) := by
  simp only [matmul]
  rw [Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 b z)
      ((contrEquiv1 dot_S512x2048_S2048x2048_S512x2048_1_0_0_1_n_n 2048 rfl rfl).symm k) = ix2 b k :=
    funext fun a => Fin.ext (by
      match a with
      | ⟨0, _⟩ => exact lhs_0 _ _
      | ⟨1, _⟩ => exact (lhs_1 _ _).trans hk)
  have er : dot_S512x2048_S2048x2048_S512x2048_1_0_0_1_n_n.rhsIdx (ix2 b z)
      ((contrEquiv1 dot_S512x2048_S2048x2048_S512x2048_1_0_0_1_n_n 2048 rfl rfl).symm k) = ix2 k z :=
    funext fun a => Fin.ext (by
      match a with
      | ⟨0, _⟩ => exact (rhs_0 _ _).trans hk
      | ⟨1, _⟩ => exact rhs_1 _ _)
  rw [el, er]

/-- The softplus payload at (b, z). -/
theorem pay7_apply (v3 v6 : FVec Ideal S512x2048 .f32) (v18 : FVec Ideal S2048x2048 .bf16) (v21 : FVec Ideal S1x2048 .f32)
    (b : Fin 512) (z : Fin 2048) :
    k0_pay7 (F := Ideal) v3 v6 v18 v21 (ix2 b z)
      = Spec.softplus ((v6 (ix2 b z) - (∑ n : Fin 2048, v6 (ix2 b n) * v18 (ix2 n z)) * v21 (ix2 (0 : Fin 1) z))
          * (v3 (ix2 b z) - v6 (ix2 b z))) := by
  have hm := matmul_ix2 (truncf .bf16 v6 bitsLt_bf16_f32) v18 b z
  have hb := broadcastTo_1b_ab_apply (a := 512) v21 broadcasts_S1x2048_S512x2048 b z
  have e : k0_pay7 (F := Ideal) v3 v6 v18 v21 (ix2 b z)
      = Spec.softplus ((v6 (ix2 b z)
          - matmul dot_S512x2048_S2048x2048_S512x2048_1_0_0_1_n_n none (truncf .bf16 v6 bitsLt_bf16_f32) v18
              (constant S512x2048 .f32 0x00000000#32) (ix2 b z)
            * broadcastTo S512x2048 v21 broadcasts_S1x2048_S512x2048 (ix2 b z))
          * (v3 (ix2 b z) - v6 (ix2 b z))) := by
    unfold k0_pay7 k0_pay5
    simp only [shapeCast_self]
    rfl
  rw [e, hm, hb]
  rfl

/-- Lane `l` of lane group `q` among the 2048 column sums. -/
theorem cast_groups (v : FVec Ideal S2048 .f32) (q : Fin 16) (l : Fin 128) :
    shapeCast S16x128 v shapeCasts_S2048_S16x128 (ix2 q l)
      = v (ix1 ⟨l.val + 128 * q.val, by have := q.isLt; have := l.isLt; omega⟩) :=
  shapeCast_apply v shapeCasts_S2048_S16x128 _ _ (by
    rw [Shape.rowMajor_val_two, Shape.rowMajor_val_one]
    show l.val + 128 * q.val = q.val * 128 + l.val
    omega)

/-- The sum over the 512 rows, at column `z`. -/
theorem colsum_apply (v : FVec Ideal S512x2048 .f32) (z : Fin 2048) :
    multiReduction .add [0] S2048 v 0x00000000#32 reduces_S512x2048_S2048 (.inl rfl) rfl (ix1 z)
      = ∑ b : Fin 512, v (ix2 b z) := by
  refine (Ideal.multiReduction_add_single v 0x00000000#32 reduces_S512x2048_S2048 (.inl rfl) rfl (ix1 z)).trans ?_
  refine Finset.sum_congr rfl fun k _ => ?_
  exact congrArg v (funext fun a => Fin.ext (by match a with | ⟨0, _⟩ => rfl | ⟨1, _⟩ => rfl))

/-- The folded column sums at (r, l): lane groups `r` and `r + 8`. -/
theorem fold_apply (v : FVec Ideal S512x2048 .f32) (r : Fin 8) (l : Fin 128) :
    addf (extractStridedSlice S8x128 ![0, 0]
          (shapeCast S16x128 (multiReduction .add [0] S2048 v 0x00000000#32 reduces_S512x2048_S2048 (.inl rfl) rfl) shapeCasts_S2048_S16x128)
          slices_S16x128_o0_0_S8x128)
        (extractStridedSlice S8x128 ![8, 0]
          (shapeCast S16x128 (multiReduction .add [0] S2048 v 0x00000000#32 reduces_S512x2048_S2048 (.inl rfl) rfl) shapeCasts_S2048_S16x128)
          slices_S16x128_o8_0_S8x128) (ix2 r l)
      = ∑ b : Fin 512, v (ix2 b (col 0 r l)) + ∑ b : Fin 512, v (ix2 b (col 1 r l)) := by
  have h0 := extractStridedSlice_apply ![0, 0]
    (shapeCast S16x128 (multiReduction .add [0] S2048 v 0x00000000#32 reduces_S512x2048_S2048 (.inl rfl) rfl) shapeCasts_S2048_S16x128)
    slices_S16x128_o0_0_S8x128 (ix2 r l) (ix2 (⟨r.val, by have := r.isLt; omega⟩ : Fin 16) l)
    (fun a => by match a with | ⟨0, _⟩ => exact (Nat.zero_add _).symm | ⟨1, _⟩ => exact (Nat.zero_add _).symm)
  have h1 := extractStridedSlice_apply ![8, 0]
    (shapeCast S16x128 (multiReduction .add [0] S2048 v 0x00000000#32 reduces_S512x2048_S2048 (.inl rfl) rfl) shapeCasts_S2048_S16x128)
    slices_S16x128_o8_0_S8x128 (ix2 r l) (ix2 (⟨8 + r.val, by have := r.isLt; omega⟩ : Fin 16) l)
    (fun a => by match a with | ⟨0, _⟩ => rfl | ⟨1, _⟩ => exact (Nat.zero_add _).symm)
  rw [addf_apply, h0, h1, cast_groups, cast_groups, colsum_apply, colsum_apply]
  refine congrArg₂ (· + ·) (Finset.sum_congr rfl fun b _ => congrArg v (congrArg (ix2 b) (Fin.ext ?_)))
    (Finset.sum_congr rfl fun b _ => congrArg v (congrArg (ix2 b) (Fin.ext ?_)))
  · show l.val + 128 * r.val = l.val + 128 * (r.val + 8 * 0)
    omega
  · show l.val + 128 * (8 + r.val) = l.val + 128 * (r.val + 8 * 1)
    omega

/-- The first output's final store at (0, r, l). -/
theorem pay1_apply (v16 : FVec Ideal S512x2048 .f32) (v52 : Vec Ideal S1x8x128 .f32) (u : Fin 1) (r : Fin 8) (l : Fin 128) :
    k0_pay1 (F := Ideal) v16 v52 (ix3 u r l)
      = v52 (ix3 (0 : Fin 1) r l) + (∑ b : Fin 512, v16 (ix2 b (col 0 r l)) + ∑ b : Fin 512, v16 (ix2 b (col 1 r l))) := by
  unfold k0_pay1
  rw [shapeCast_ab_1ab_apply, addf_apply, shapeCast_1ab_ab_apply, fold_apply]

/-- The second output's final store at (0, r, l): the softplus terms weighted by the row of flags first. -/
theorem pay2_apply (v37 : FVec Ideal S512x2048 .f32) (v38 : Vec Ideal S1x2048 .f32) (v58 : Vec Ideal S1x8x128 .f32)
    (u : Fin 1) (r : Fin 8) (l : Fin 128) :
    k0_pay2 (F := Ideal) v37 v38 v58 (ix3 u r l)
      = v58 (ix3 (0 : Fin 1) r l)
        + (∑ b : Fin 512, v37 (ix2 b (col 0 r l)) * v38 (ix2 (0 : Fin 1) (col 0 r l))
          + ∑ b : Fin 512, v37 (ix2 b (col 1 r l)) * v38 (ix2 (0 : Fin 1) (col 1 r l))) := by
  unfold k0_pay2
  simp only [shapeCast_self]
  rw [shapeCast_ab_1ab_apply, addf_apply, shapeCast_1ab_ab_apply, fold_apply]
  refine congrArg (_ + ·) (congrArg₂ (· + ·) (Finset.sum_congr rfl fun b _ => ?_) (Finset.sum_congr rfl fun b _ => ?_))
  · rw [mulf_apply, broadcastTo_1b_ab_apply]
  · rw [mulf_apply, broadcastTo_1b_ab_apply]

end Cert.KernelIdeal.Payload

end
-- ==== Proof.KernelTile.lean ====
/-
  One grid point's contribution, with the blocks it loads read as pieces of whole arrays.

  If the three data blocks at tile `t` are rows 512·t … 512·t + 511 of arrays `P`, `Tg`, `Tm`, and the neighbour matrix
  and the two rows are `Wm`, `Sr`, `Hf`, then each final store writes, at (0, r, l), the block's previous value plus
  `tile F t r l` for the entry function `F` of the output: the smooth-L1 term `A` for the first, the flag-weighted
  softplus term `Wt` for the second.
-/
import proofs.«122916_j39651138077317_2_alg».proof.Proof.KernelPayload

noncomputable section

open scoped BigOperators
open Idealize.ShloMosaic Idealize.ShloMosaic.ValueIdx

namespace Cert.KernelIdeal.Tile

open Cert.KernelIdeal Cert.KernelIdeal.Gen Cert.Algebra Cert.KernelIdeal.Payload Cert.Spec

theorem store6 (P Tg : Fin 16384 → Fin 2048 → EReal) (t : Fin 32) (x0 x1 : FVec Ideal S512x2048 .f32)
    (h0 : ∀ b z, x0 (ix2 b z) = P (row t b) z) (h1 : ∀ b z, x1 (ix2 b z) = Tg (row t b) z)
    (xo : Vec Ideal S1x8x128 .f32) (u : Fin 1) (r : Fin 8) (l : Fin 128) :
    k0_pay1 (F := Ideal) (k0_pay6 x0 x1) xo (ix3 u r l) = xo (ix3 (0 : Fin 1) r l) + tile (A P Tg) t r l := by
  rw [pay1_apply]
  unfold tile A
  simp only [pay6_apply, h0, h1]

theorem store7 (P Tm : Fin 16384 → Fin 2048 → EReal) (Wm : Fin 2048 → Fin 2048 → EReal) (Sr Hf : Fin 2048 → EReal)
    (t : Fin 32) (x0 x2 : FVec Ideal S512x2048 .f32) (x3 : FVec Ideal S2048x2048 .bf16) (x4 x5 : FVec Ideal S1x2048 .f32)
    (h0 : ∀ b z, x0 (ix2 b z) = P (row t b) z) (h2 : ∀ b z, x2 (ix2 b z) = Tm (row t b) z)
    (h3 : ∀ n z, x3 (ix2 n z) = Wm n z) (h4 : ∀ z, x4 (ix2 (0 : Fin 1) z) = Sr z) (h5 : ∀ z, x5 (ix2 (0 : Fin 1) z) = Hf z)
    (xo : Vec Ideal S1x8x128 .f32) (u : Fin 1) (r : Fin 8) (l : Fin 128) :
    k0_pay2 (F := Ideal) (k0_pay7 x0 x2 x3 x4) x5 xo (ix3 u r l)
      = xo (ix3 (0 : Fin 1) r l) + tile (Wt P Tm Wm Sr Hf) t r l := by
  rw [pay2_apply]
  unfold tile Wt
  simp only [pay7_apply, h0, h2, h3, h4, h5]

/-- The zero block both outputs are reset to. -/
theorem zero3 (j : S1x8x128.Idx) : k0_pay3 (F := Ideal) j = 0 := Spec.ofBits_zero
theorem zero4 (j : S1x8x128.Idx) : k0_pay4 (F := Ideal) j = 0 := Spec.ofBits_zero

end Cert.KernelIdeal.Tile

end
-- ==== Proof.KernelHost.lean ====
/-
  What the region finds in its six input arrays, entry by entry, on the extended reals.

  The host lines before the kernel are layout and the zone statistics:
    window 0  predictions with the trailing unit axis dropped:            (b, z) ↦ preds (b, z, 0)
    window 3  the neighbour matrix, the 0/1 mask transposed:             (n, z) ↦ [adjacency (z, n) > 0]
    window 4  the row of reciprocal degrees:                             (0, z) ↦ 1 / (deg z if deg z > 0 else 1)
    window 5  the row of flags:                                          (0, z) ↦ [deg z > 0]
  with deg z the sum of row z of the mask. Windows 1 and 2 are the arguments themselves.
-/
import proofs.«122916_j39651138077317_2_alg».proof.Proof.Gen.KernelIdeal.Frame
import proofs.«122916_j39651138077317_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx

namespace Cert.KernelIdeal.HostSide

open Cert.KernelIdeal Cert.KernelIdeal.Gen

/-! ## The zone statistics as the host computes them -/

/-- The mask's entry (z, n): 1 where the adjacency entry is positive, else 0. -/
def Mk (x3 : IVec S2048x2048 32) (z n : Fin 2048) : EReal := Spec.flag (IntOp.cmpi .sgt (x3 (ix2 z n)) 0#32)

def maskV (x3 : IVec S2048x2048 32) : FVec Ideal S2048x2048 .f32 :=
  uitofp .f32 (cmpi .sgt x3 (broadcastInDim S2048x2048 ![] bcast_S_S2048x2048 (constantI S_ 32 0#32)))

theorem maskV_apply (x3 : IVec S2048x2048 32) (z n : Fin 2048) : maskV x3 (ix2 z n) = Mk x3 z n := by
  unfold maskV Mk
  show FloatOps.uitofp (F := Ideal) .f32 (IntOp.cmpi .sgt (x3 (ix2 z n))
    (broadcastInDim S2048x2048 ![] bcast_S_S2048x2048 (constantI S_ 32 0#32) (ix2 z n))) = _
  rw [broadcastInDim_scalar_apply]
  rfl

def degV (x3 : IVec S2048x2048 32) : FVec Ideal S2048 .f32 :=
  Host.reduceAdd (F := Ideal) (maskV x3) (constant (F := Ideal) S_ .f32 0x00000000#32) reducesTo_S2048x2048_S2048_d1 h_S_

theorem degV_apply (x3 : IVec S2048x2048 32) (z : Fin 2048) : degV x3 (ix1 z) = Spec.deg (Mk x3) z := by
  unfold degV Spec.deg
  simp only [Host.reduceAdd, Ideal.hostReduceAdd_def]
  rw [Ideal.hostReduceAdd_single reducesTo_S2048x2048_S2048_d1 (by decide)]
  refine congrArg (_ + ·) (Finset.sum_congr rfl fun k _ => ?_)
  exact (congrArg (maskV x3) (funext fun a => Fin.ext (by match a with | ⟨0, _⟩ => rfl | ⟨1, _⟩ => rfl))).trans
    (maskV_apply x3 z k)

def hnV (x3 : IVec S2048x2048 32) : IVec S2048 1 :=
  cmpf .ogt (degV x3) (broadcastInDim S2048 ![] bcast_S_S2048 (constant (F := Ideal) S_ .f32 0x00000000#32))

theorem hnV_apply (x3 : IVec S2048x2048 32) (z : Fin 2048) : hnV x3 (ix1 z) = Spec.hasNb (Mk x3) z := by
  unfold hnV Spec.hasNb
  show FloatOps.cmpf .ogt (degV x3 (ix1 z))
    (broadcastInDim S2048 ![] bcast_S_S2048 (constant (F := Ideal) S_ .f32 0x00000000#32) (ix1 z)) = _
  rw [degV_apply, broadcastInDim_scalar_apply]
  rfl

def sdV (x3 : IVec S2048x2048 32) : FVec Ideal S2048 .f32 :=
  select (hnV x3) (degV x3) (broadcastInDim S2048 ![] bcast_S_S2048 (constant (F := Ideal) S_ .f32 0x3F800000#32))

theorem sdV_apply (x3 : IVec S2048x2048 32) (z : Fin 2048) : sdV x3 (ix1 z) = Spec.safeDeg (Mk x3) z := by
  unfold sdV Spec.safeDeg
  show Scalar.select (hnV x3 (ix1 z)) (degV x3 (ix1 z))
    (broadcastInDim S2048 ![] bcast_S_S2048 (constant (F := Ideal) S_ .f32 0x3F800000#32) (ix1 z)) = _
  rw [hnV_apply, degV_apply, broadcastInDim_scalar_apply]
  rfl

/-! ## The arrays as the region finds them -/

variable (m : (ℓ : Loc nD τ sig) → Buf (Elt Ideal) ℓ) (c : Dev nD)

theorem V_v0 : (V m c main_v0 : S16384x2048.Idx → EReal)
    = shapeCast S16384x2048 (m ((c.tc : Thread nD τ).loc main_arg0)) shapeCasts_S16384x2048x1_S16384x2048 := by
  dsimp only [Gen.V, Gen.V0]
  simp only [Gen.hostOps0, Gen.hostOps0_1, Gen.hostOps0_2, List.flatten_cons, List.flatten_nil, List.append_nil,
    List.cons_append, List.nil_append]
  after_results
  rfl

theorem V_v14 : (V m c main_v14 : S2048x2048.Idx → EReal)
    = truncf .bf16 (transpose S2048x2048 [1, 0] (maskV (m ((c.tc : Thread nD τ).loc main_arg3)))
        transposes_S2048x2048_S2048x2048_1_0) bitsLt_bf16_f32 := by
  dsimp only [Gen.V, Gen.V0]
  simp only [Gen.hostOps0, Gen.hostOps0_1, Gen.hostOps0_2, List.flatten_cons, List.flatten_nil, List.append_nil,
    List.cons_append, List.nil_append]
  after_results
  rfl

theorem V_v10 : (V m c main_v10 : S1x2048.Idx → EReal)
    = shapeCast S1x2048 (Host.divf (F := Ideal)
        (broadcastInDim S2048 ![] bcast_S_S2048 (constant (F := Ideal) S_ .f32 0x3F800000#32))
        (sdV (m ((c.tc : Thread nD τ).loc main_arg3)))) shapeCasts_S2048_S1x2048 := by
  dsimp only [Gen.V, Gen.V0]
  simp only [Gen.hostOps0, Gen.hostOps0_1, Gen.hostOps0_2, List.flatten_cons, List.flatten_nil, List.append_nil,
    List.cons_append, List.nil_append]
  after_results
  rfl

theorem V_v12 : (V m c main_v12 : S1x2048.Idx → EReal)
    = shapeCast S1x2048 (uitofp (F := Ideal) .f32 (hnV (m ((c.tc : Thread nD τ).loc main_arg3)))) shapeCasts_S2048_S1x2048 := by
  dsimp only [Gen.V, Gen.V0]
  simp only [Gen.hostOps0, Gen.hostOps0_1, Gen.hostOps0_2, List.flatten_cons, List.flatten_nil, List.append_nil,
    List.cons_append, List.nil_append]
  after_results
  rfl

/-! ## … read at an entry -/

theorem V_v0_apply (b : Fin 16384) (z : Fin 2048) :
    (V m c main_v0 : S16384x2048.Idx → EReal) (ix2 b z) = m ((c.tc : Thread nD τ).loc main_arg0) (ix3 b z (0 : Fin 1)) := by
  rw [V_v0]
  exact shapeCast_apply _ shapeCasts_S16384x2048x1_S16384x2048 _ _ (by
    rw [Shape.rowMajor_val_three, Shape.rowMajor_val_two]
    show (b.val * 2048 + z.val) * 1 + 0 = b.val * 2048 + z.val
    omega)

theorem V_v14_apply (n z : Fin 2048) :
    (V m c main_v14 : S2048x2048.Idx → EReal) (ix2 n z) = Mk (m ((c.tc : Thread nD τ).loc main_arg3)) z n := by
  rw [V_v14, truncf_apply, transpose_ix2_apply, maskV_apply]

theorem V_v10_apply (z : Fin 2048) :
    (V m c main_v10 : S1x2048.Idx → EReal) (ix2 (0 : Fin 1) z)
      = Ideal.div (Ideal.ofBits .f32 0x3F800000#32) (Spec.safeDeg (Mk (m ((c.tc : Thread nD τ).loc main_arg3))) z) := by
  rw [V_v10, shapeCast_a_1a_apply]
  show Ideal.div (broadcastInDim S2048 ![] bcast_S_S2048 (constant (F := Ideal) S_ .f32 0x3F800000#32) (ix1 z))
    (sdV (m ((c.tc : Thread nD τ).loc main_arg3)) (ix1 z)) = _
  rw [broadcastInDim_scalar_apply, sdV_apply]
  rfl

theorem V_v12_apply (z : Fin 2048) :
    (V m c main_v12 : S1x2048.Idx → EReal) (ix2 (0 : Fin 1) z)
      = Spec.flag (Spec.hasNb (Mk (m ((c.tc : Thread nD τ).loc main_arg3))) z) := by
  rw [V_v12, shapeCast_a_1a_apply]
  show Spec.flag (hnV (m ((c.tc : Thread nD τ).loc main_arg3)) (ix1 z)) = _
  rw [hnV_apply]

end Cert.KernelIdeal.HostSide

end
-- ==== Proof.KernelAccum.lean ====
/-
  The two output arrays after the whole grid, on the extended reals.

  The grid is 2 × 16: point t = 16·c0 + i handles tile t (rows 512·t … 512·t + 511) and adds its folded column sums
  into output block c0, which is reset at i = 0 and written back after i = 15. By induction on the point, the block's
  staging contents after point t are the sum of the tiles of t's half up to t (`Algebra.acc`), for both outputs; the
  two write-backs (points 15 and 31) cover the [2, 8, 128] arrays, so each array ends, at (c0, r, l), at the
  accumulator of half c0 after its last point.
-/
import proofs.«122916_j39651138077317_2_alg».proof.Proof.Gen.KernelIdeal.Frame
import proofs.«122916_j39651138077317_2_alg».proof.Proof.KernelPieces
import proofs.«122916_j39651138077317_2_alg».proof.Proof.KernelTile
import proofs.«122916_j39651138077317_2_alg».proof.Proof.KernelHost

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Algebra

variable (m : (ℓ : Loc nD τ sig) → Buf (Elt Ideal) ℓ) (c : Dev nD)

/-! ## The arguments as functions of (batch row, zone) -/

def P (b : Fin 16384) (z : Fin 2048) : EReal := m ((c.tc : Thread nD τ).loc main_arg0) (ix3 b z (0 : Fin 1))
def Tg (b : Fin 16384) (z : Fin 2048) : EReal := m ((c.tc : Thread nD τ).loc main_arg1) (ix2 b z)
def Tm (b : Fin 16384) (z : Fin 2048) : EReal := m ((c.tc : Thread nD τ).loc main_arg2) (ix2 b z)
abbrev Mk : Fin 2048 → Fin 2048 → EReal := HostSide.Mk (m ((c.tc : Thread nD τ).loc main_arg3))

/-- The first output's entry function: the smooth-L1 term. -/
abbrev FA : Fin 16384 → Fin 2048 → EReal := Spec.A (P m c) (Tg m c)
/-- The second output's entry function: the flag-weighted softplus term. -/
abbrev FW : Fin 16384 → Fin 2048 → EReal :=
  Spec.Wt (P m c) (Tm m c) (fun n z => Mk m c z n)
    (fun z => Ideal.div (Ideal.ofBits .f32 0x3F800000#32) (Spec.safeDeg (Mk m c) z))
    (fun z => Spec.flag (Spec.hasNb (Mk m c) z))

/-! ## The blocks the body loads -/

/-- A grid point as a tile number. -/
def tt (t : Fin cfg0.N) : Fin 32 := ⟨t.val, lt_of_lt_of_eq t.isLt N_0⟩

theorem idx_in : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) :=
  (by decide +kernel : ∀ t : Fin grid0.N, _)

theorem idx_out : ∀ t : Fin cfg0.N, (win0_6.index t 0 = t.val / 16 ∧ win0_6.index t 1 = 0 ∧ win0_6.index t 2 = 0)
    ∧ (win0_7.index t 0 = t.val / 16 ∧ win0_7.index t 1 = 0 ∧ win0_7.index t 2 = 0) :=
  (by decide +kernel : ∀ t : Fin grid0.N, _)

theorem iblk0 (t : Fin cfg0.N) (b : Fin 512) (z : Fin 2048) :
    (iblk m c 0 t : Vec Ideal S512x2048 .f32) (ix2 b z) = P m c (row (tt t) b) z := by
  unfold iblk
  rw [View.read_apply]
  refine Eq.trans ?_ (HostSide.V_v0_apply m c (row (tt t) b) z)
  refine congrArg (V m c main_v0 : S16384x2048.Idx → EReal) (funext fun a => Fin.ext ?_)
  match a with
  | ⟨0, _⟩ => show win0_0.index t 0 * 512 + 1 * b.val = b.val + 512 * t.val; rw [(idx_in t).1.1]; omega
  | ⟨1, _⟩ => show win0_0.index t 1 * 2048 + 1 * z.val = z.val; rw [(idx_in t).1.2]; omega

theorem iblk1 (t : Fin cfg0.N) (b : Fin 512) (z : Fin 2048) :
    (iblk m c 1 t : Vec Ideal S512x2048 .f32) (ix2 b z) = Tg m c (row (tt t) b) z := by
  unfold iblk
  rw [View.read_apply]
  show V m c main_arg1 _ = _
  rw [V_main_arg1]
  unfold Tg
  refine congrArg (m ((c.tc : Thread nD τ).loc main_arg1) : S16384x2048.Idx → EReal) (funext fun a => Fin.ext ?_)
  match a with
  | ⟨0, _⟩ => show win0_1.index t 0 * 512 + 1 * b.val = b.val + 512 * t.val; rw [(idx_in t).2.1.1]; omega
  | ⟨1, _⟩ => show win0_1.index t 1 * 2048 + 1 * z.val = z.val; rw [(idx_in t).2.1.2]; omega

theorem iblk2 (t : Fin cfg0.N) (b : Fin 512) (z : Fin 2048) :
    (iblk m c 2 t : Vec Ideal S512x2048 .f32) (ix2 b z) = Tm m c (row (tt t) b) z := by
  unfold iblk
  rw [View.read_apply]
  show V m c main_arg2 _ = _
  rw [V_main_arg2]
  unfold Tm
  refine congrArg (m ((c.tc : Thread nD τ).loc main_arg2) : S16384x2048.Idx → EReal) (funext fun a => Fin.ext ?_)
  match a with
  | ⟨0, _⟩ => show win0_2.index t 0 * 512 + 1 * b.val = b.val + 512 * t.val; rw [(idx_in t).2.2.1.1]; omega
  | ⟨1, _⟩ => show win0_2.index t 1 * 2048 + 1 * z.val = z.val; rw [(idx_in t).2.2.1.2]; omega

theorem iblk3 (t : Fin cfg0.N) (n z : Fin 2048) :
    (iblk m c 3 t : Vec Ideal S2048x2048 .bf16) (ix2 n z) = Mk m c z n := by
  unfold iblk
  rw [View.read_apply]
  refine Eq.trans ?_ (HostSide.V_v14_apply m c n z)
  refine congrArg (V m c main_v14 : S2048x2048.Idx → EReal) (funext fun a => Fin.ext ?_)
  match a with
  | ⟨0, _⟩ => show win0_3.index t 0 * 2048 + 1 * n.val = n.val; rw [(idx_in t).2.2.2.1.1]; omega
  | ⟨1, _⟩ => show win0_3.index t 1 * 2048 + 1 * z.val = z.val; rw [(idx_in t).2.2.2.1.2]; omega

theorem iblk4 (t : Fin cfg0.N) (z : Fin 2048) :
    (iblk m c 4 t : Vec Ideal S1x2048 .f32) (ix2 (0 : Fin 1) z)
      = Ideal.div (Ideal.ofBits .f32 0x3F800000#32) (Spec.safeDeg (Mk m c) z) := by
  unfold iblk
  rw [View.read_apply]
  refine Eq.trans ?_ (HostSide.V_v10_apply m c z)
  refine congrArg (V m c main_v10 : S1x2048.Idx → EReal) (funext fun a => Fin.ext ?_)
  match a with
  | ⟨0, _⟩ => show win0_4.index t 0 * 1 + 1 * 0 = 0; rw [(idx_in t).2.2.2.2.1.1]
  | ⟨1, _⟩ => show win0_4.index t 1 * 2048 + 1 * z.val = z.val; rw [(idx_in t).2.2.2.2.1.2]; omega

theorem iblk5 (t : Fin cfg0.N) (z : Fin 2048) :
    (iblk m c 5 t : Vec Ideal S1x2048 .f32) (ix2 (0 : Fin 1) z) = Spec.flag (Spec.hasNb (Mk m c) z) := by
  unfold iblk
  rw [View.read_apply]
  refine Eq.trans ?_ (HostSide.V_v12_apply m c z)
  refine congrArg (V m c main_v12 : S1x2048.Idx → EReal) (funext fun a => Fin.ext ?_)
  match a with
  | ⟨0, _⟩ => show win0_5.index t 0 * 1 + 1 * 0 = 0; rw [(idx_in t).2.2.2.2.2.1]
  | ⟨1, _⟩ => show win0_5.index t 1 * 2048 + 1 * z.val = z.val; rw [(idx_in t).2.2.2.2.2.2]; omega

/-! ## The accumulators, point by point -/

/-- An accumulator as block contents. -/
def accV (F : Fin 16384 → Fin 2048 → EReal) (n : ℕ) : Vec Ideal S1x8x128 .f32 := fun j => acc F n (j 1) (j 2)

theorem first6 (t : Fin cfg0.N) (h0 : t.val % 16 = 0) :
    k0_pay1 (F := Ideal) (k0_pay6 (iblk m c 0 t) (iblk m c 1 t)) (k0_pay3 (F := Ideal)) = accV (FA m c) t.val := by
  funext j
  obtain ⟨u, r, l, rfl⟩ : ∃ (u : Fin 1) (r : Fin 8) (l : Fin 128), j = ix3 u r l := ⟨j 0, j 1, j 2, eq_ix3 j⟩
  refine (Tile.store6 (P m c) (Tg m c) (tt t) (iblk m c 0 t) (iblk m c 1 t) (iblk0 m c t) (iblk1 m c t)
    (k0_pay3 (F := Ideal)) u r l).trans ?_
  rw [Tile.zero3, zero_add]
  show tile (FA m c) (tt t) r l = acc (FA m c) t.val r l
  rw [acc_first _ _ h0, ← tileN_val]
  rfl

theorem step6 (t : Fin cfg0.N) (h0 : ¬t.val % 16 = 0) :
    k0_pay1 (F := Ideal) (k0_pay6 (iblk m c 0 t) (iblk m c 1 t)) (accV (FA m c) (t.val - 1)) = accV (FA m c) t.val := by
  funext j
  obtain ⟨u, r, l, rfl⟩ : ∃ (u : Fin 1) (r : Fin 8) (l : Fin 128), j = ix3 u r l := ⟨j 0, j 1, j 2, eq_ix3 j⟩
  refine (Tile.store6 (P m c) (Tg m c) (tt t) (iblk m c 0 t) (iblk m c 1 t) (iblk0 m c t) (iblk1 m c t)
    (accV (FA m c) (t.val - 1)) u r l).trans ?_
  show acc (FA m c) (t.val - 1) r l + tile (FA m c) (tt t) r l = acc (FA m c) t.val r l
  rw [acc_step _ _ h0, ← tileN_val]
  rfl

theorem first7 (t : Fin cfg0.N) (h0 : t.val % 16 = 0) :
    k0_pay2 (F := Ideal) (k0_pay7 (iblk m c 0 t) (iblk m c 2 t) (iblk m c 3 t) (iblk m c 4 t)) (iblk m c 5 t)
      (k0_pay4 (F := Ideal)) = accV (FW m c) t.val := by
  funext j
  obtain ⟨u, r, l, rfl⟩ : ∃ (u : Fin 1) (r : Fin 8) (l : Fin 128), j = ix3 u r l := ⟨j 0, j 1, j 2, eq_ix3 j⟩
  refine (Tile.store7 (P m c) (Tm m c) (fun n z => Mk m c z n)
    (fun z => Ideal.div (Ideal.ofBits .f32 0x3F800000#32) (Spec.safeDeg (Mk m c) z))
    (fun z => Spec.flag (Spec.hasNb (Mk m c) z)) (tt t)
    (iblk m c 0 t) (iblk m c 2 t) (iblk m c 3 t) (iblk m c 4 t) (iblk m c 5 t)
    (iblk0 m c t) (iblk2 m c t) (iblk3 m c t) (iblk4 m c t) (iblk5 m c t) (k0_pay4 (F := Ideal)) u r l).trans ?_
  rw [Tile.zero4, zero_add]
  show tile (FW m c) (tt t) r l = acc (FW m c) t.val r l
  rw [acc_first _ _ h0, ← tileN_val]
  rfl

theorem step7 (t : Fin cfg0.N) (h0 : ¬t.val % 16 = 0) :
    k0_pay2 (F := Ideal) (k0_pay7 (iblk m c 0 t) (iblk m c 2 t) (iblk m c 3 t) (iblk m c 4 t)) (iblk m c 5 t)
      (accV (FW m c) (t.val - 1)) = accV (FW m c) t.val := by
  funext j
  obtain ⟨u, r, l, rfl⟩ : ∃ (u : Fin 1) (r : Fin 8) (l : Fin 128), j = ix3 u r l := ⟨j 0, j 1, j 2, eq_ix3 j⟩
  refine (Tile.store7 (P m c) (Tm m c) (fun n z => Mk m c z n)
    (fun z => Ideal.div (Ideal.ofBits .f32 0x3F800000#32) (Spec.safeDeg (Mk m c) z))
    (fun z => Spec.flag (Spec.hasNb (Mk m c) z)) (tt t)
    (iblk m c 0 t) (iblk m c 2 t) (iblk m c 3 t) (iblk m c 4 t) (iblk m c 5 t)
    (iblk0 m c t) (iblk2 m c t) (iblk3 m c t) (iblk4 m c t) (iblk5 m c t) (accV (FW m c) (t.val - 1)) u r l).trans ?_
  show acc (FW m c) (t.val - 1) r l + tile (FW m c) (tt t) r l = acc (FW m c) t.val r l
  rw [acc_step _ _ h0, ← tileN_val]
  rfl

/-- What the two output blocks' staging buffers hold after point `n`: the accumulators. -/
theorem outsAt_eq : ∀ (n : ℕ) (h : n < cfg0.N), outsAt0 m c n h = (accV (FA m c) n, accV (FW m c) n)
  | 0, h => by
    rw [outsAt0_A m c ⟨0, h⟩ rfl, Pieces.out_A_6, Pieces.out_A_7]
    exact Prod.ext (first6 m c ⟨0, h⟩ rfl) (first7 m c ⟨0, h⟩ rfl)
  | n + 1, h => by
    by_cases h0 : (n + 1) % 16 = 0
    · rw [outsAt0_A m c ⟨n + 1, h⟩ h0, Pieces.out_A_6, Pieces.out_A_7]
      exact Prod.ext (first6 m c ⟨n + 1, h⟩ h0) (first7 m c ⟨n + 1, h⟩ h0)
    · rw [outsAt0_B m c ⟨n + 1, h⟩ h0, Pieces.out_B_6, Pieces.out_B_7]
      show (k0_pay1 _ (outsAt0 m c n _).1, k0_pay2 _ _ (outsAt0 m c n _).2) = _
      rw [outsAt_eq n]
      exact Prod.ext (step6 m c ⟨n + 1, h⟩ h0) (step7 m c ⟨n + 1, h⟩ h0)

/-! ## The arrays after the grid -/

/-- An output array: at (c0, r, l), the accumulator of half c0 after its last point. -/
def O (F : Fin 16384 → Fin 2048 → EReal) : S2x8x128.Idx → EReal := fun j => acc F (16 * (j 0).val + 15) (j 1) (j 2)

theorem read_O (F : Fin 16384 → Fin 2048 → EReal) (t : Fin cfg0.N) (h15 : t.val % 16 = 15) (q : ℕ) (hq : q = t.val / 16)
    (j : S1x8x128.Idx) (k : S2x8x128.Idx) (hk0 : (k 0).val = q * 1 + 1 * (j 0).val) (hk1 : (k 1).val = 0 * 8 + 1 * (j 1).val)
    (hk2 : (k 2).val = 0 * 128 + 1 * (j 2).val) : accV F t.val j = O F k := by
  have hj0 : (j 0).val < 1 := (j 0).isLt
  unfold accV O
  refine congr (congr (congrArg (acc F) ?_) (Fin.ext ?_)) (Fin.ext ?_)
  · rw [hk0, hq]; omega
  · rw [hk1]; omega
  · rw [hk2]; omega

theorem flushed6 (t : Fin cfg0.N) (hf : (cfg0.win 6).flush t = true) :
    (dats m 0 c).flushed 6 t = ((cfg0.win 6).blk t).view.read (Elt Ideal) (O (FA m c)) := by
  have h15 : t.val % 16 = 15 := (flush0_6 t).mp hf
  show (cfg0.win 6).cut (grid0.coords t) ((dats m 0 c).after 6 t) = _
  rw [after0_6, outsAt_eq]
  funext j
  show accV (FA m c) t.val j = O (FA m c) (((cfg0.win 6).blk t).view.emb j)
  refine read_O (FA m c) t h15 (win0_6.index t 0) (idx_out t).1.1 j _ rfl ?_ ?_
  · show win0_6.index t 1 * 8 + 1 * (j 1).val = 0 * 8 + 1 * (j 1).val; rw [(idx_out t).1.2.1]
  · show win0_6.index t 2 * 128 + 1 * (j 2).val = 0 * 128 + 1 * (j 2).val; rw [(idx_out t).1.2.2]

theorem flushed7 (t : Fin cfg0.N) (hf : (cfg0.win 7).flush t = true) :
    (dats m 0 c).flushed 7 t = ((cfg0.win 7).blk t).view.read (Elt Ideal) (O (FW m c)) := by
  have h15 : t.val % 16 = 15 := (flush0_7 t).mp hf
  show (cfg0.win 7).cut (grid0.coords t) ((dats m 0 c).after 7 t) = _
  rw [after0_7, outsAt_eq]
  funext j
  show accV (FW m c) t.val j = O (FW m c) (((cfg0.win 7).blk t).view.emb j)
  refine read_O (FW m c) t h15 (win0_7.index t 0) (idx_out t).2.1 j _ rfl ?_ ?_
  · show win0_7.index t 1 * 8 + 1 * (j 1).val = 0 * 8 + 1 * (j 1).val; rw [(idx_out t).2.2.1]
  · show win0_7.index t 2 * 128 + 1 * (j 2).val = 0 * 128 + 1 * (j 2).val; rw [(idx_out t).2.2.2]

/-- The last point of half `q`. -/
def lastOf (q : ℕ) (hq : q < 2) : Fin cfg0.N := ⟨16 * q + 15, by rw [show cfg0.N = 32 from N_0]; omega⟩

theorem cover6 (i : S2x8x128.Idx) : ∃ t : Fin cfg0.N, (cfg0.win 6).flush t = true ∧ i ∈ ((cfg0.win 6).blk t).view.set := by
  have h0 : (i 0).val < 2 := (i 0).isLt
  have h1 : (i 1).val < 8 := (i 1).isLt
  have h2 : (i 2).val < 128 := (i 2).isLt
  refine ⟨lastOf (i 0).val h0, (flush0_6 _).mpr (by show (16 * (i 0).val + 15) % 16 = 15; omega), ?_⟩
  show i ∈ ((View.whole main_v15_0).slice (win0_6.rect (lastOf (i 0).val h0))).set
  rw [View.set_slice_whole, Rect.mem_set_unit]
  have hi := (idx_out (lastOf (i 0).val h0)).1
  have hd : (lastOf (i 0).val h0).val / 16 = (i 0).val := by show (16 * (i 0).val + 15) / 16 = (i 0).val; omega
  intro a
  match a with
  | ⟨0, _⟩ =>
    show win0_6.index (lastOf (i 0).val h0) 0 * 1 ≤ (i 0).val ∧ (i 0).val < win0_6.index (lastOf (i 0).val h0) 0 * 1 + 1
    rw [hi.1, hd]; omega
  | ⟨1, _⟩ =>
    show win0_6.index (lastOf (i 0).val h0) 1 * 8 ≤ (i 1).val ∧ (i 1).val < win0_6.index (lastOf (i 0).val h0) 1 * 8 + 8
    rw [hi.2.1]; omega
  | ⟨2, _⟩ =>
    show win0_6.index (lastOf (i 0).val h0) 2 * 128 ≤ (i 2).val ∧ (i 2).val < win0_6.index (lastOf (i 0).val h0) 2 * 128 + 128
    rw [hi.2.2]; omega

theorem cover7 (i : S2x8x128.Idx) : ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 128 := (i 2).isLt
  refine ⟨lastOf (i 0).val h0, (flush0_7 _).mpr (by show (16 * (i 0).val + 15) % 16 = 15; omega), ?_⟩
  show i ∈ ((View.whole main_v15_1).slice (win0_7.rect (lastOf (i 0).val h0))).set
  rw [View.set_slice_whole, Rect.mem_set_unit]
  have hi := (idx_out (lastOf (i 0).val h0)).2
  have hd : (lastOf (i 0).val h0).val / 16 = (i 0).val := by show (16 * (i 0).val + 15) / 16 = (i 0).val; omega
  intro a
  match a with
  | ⟨0, _⟩ =>
    show win0_7.index (lastOf (i 0).val h0) 0 * 1 ≤ (i 0).val ∧ (i 0).val < win0_7.index (lastOf (i 0).val h0) 0 * 1 + 1
    rw [hi.1, hd]; omega
  | ⟨1, _⟩ =>
    show win0_7.index (lastOf (i 0).val h0) 1 * 8 ≤ (i 1).val ∧ (i 1).val < win0_7.index (lastOf (i 0).val h0) 1 * 8 + 8
    rw [hi.2.1]; omega
  | ⟨2, _⟩ =>
    show win0_7.index (lastOf (i 0).val h0) 2 * 128 ≤ (i 2).val ∧ (i 2).val < win0_7.index (lastOf (i 0).val h0) 2 * 128 + 128
    rw [hi.2.2]; omega

/-- The first output array after the grid. -/
theorem final6 : (dats m 0 c).arrAt 6 cfg0.N = O (FA m c) :=
  (dats m 0 c).arrAt_eq_of_cover 6 (O (FA m c)) (flushed6 m c) (cover6)

/-- The second output array after the grid. -/
theorem final7 : (dats m 0 c).arrAt 7 cfg0.N = O (FW m c) :=
  (dats m 0 c).arrAt_eq_of_cover 7 (O (FW m c)) (flushed7 m c) (cover7)

end Cert.KernelIdeal.Accum

end
-- ==== Proof.KernelRun.lean ====
/-
  The kernel program's two results, on the extended reals.

  After the region the host adds up every entry of each [2, 8, 128] output array (from the literal zero), divides by
  2^25, and combines: second result = the physics sum / 2^25; first result = the smooth-L1 sum / 2^25 + 0.15 · the
  second. By the tiling identity each array's total is the total of its entry function over all 16384 × 2048 entries,
  so the results are `Spec.lossTotal` and `Spec.lossPhys` of the arguments.
-/
import proofs.«122916_j39651138077317_2_alg».proof.Proof.KernelAccum
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.LibFiniteSums

/-- Every entry of an output array, added up, is every entry of its entry function, added up. -/
theorem total_O (F : Fin 16384 → Fin 2048 → EReal) :
    ∑ j : S2x8x128.Idx, O F j = ∑ b : Fin 16384, ∑ z : Fin 2048, F b z := by
  rw [sum_idx3]
  exact Algebra.total F

/-- The host's sum over every axis, from the literal zero. -/
theorem reduce_all (y : S2x8x128.Idx → EReal) (i : S_.Idx) :
    Host.reduceAdd (F := Ideal) y (constant (F := Ideal) S_ .f32 0x00000000#32) reducesTo_S2x8x128_S_d0_1_2 h_S_ i
      = Ideal.ofBits .f32 0x00000000#32 + ∑ j : S2x8x128.Idx, y j := by
  simp only [Host.reduceAdd, Ideal.hostReduceAdd_def]
  exact Ideal.hostReduceAdd_total reducesTo_S2x8x128_S_d0_1_2 (fun b => b.elim0) y _ i

variable (m : (ℓ : Loc nD τ sig) → Buf (Elt Ideal) ℓ) (ρ : Dev nD → PrngReg)

/-- The two results. -/
def res21 (c : Dev nD) : Buf (Elt Ideal) ((c.tc : Thread nD τ).loc main_v21) :=
  fun _ => Spec.lossTotal (Mk m c) (P m c) (Tg m c) (Tm m c)
def res19 (c : Dev nD) : Buf (Elt Ideal) ((c.tc : Thread nD τ).loc main_v19) :=
  fun _ => Spec.lossPhys (Mk m c) (P m c) (Tm m c)

theorem arr6 (c : Dev nD) :
    (Pipeline.withArrays (cfgs 0).spec c (V0 m c) (fun w => (dats m 0 c).arrAt w (cfgs 0).N) (Proc.devRef .tc main_v15_0)
      : S2x8x128.Idx → EReal) = O (FA m c) :=
  (Pipeline.withArrays_arr spec0 launch0.win.arr_inj c _ _ 6).trans (final6 m c)

theorem arr7 (c : Dev nD) :
    (Pipeline.withArrays (cfgs 0).spec c (V0 m c) (fun w => (dats m 0 c).arrAt w (cfgs 0).N) (Proc.devRef .tc main_v15_1)
      : S2x8x128.Idx → EReal) = O (FW m c) :=
  (Pipeline.withArrays_arr spec0 launch0.win.arr_inj c _ _ 7).trans (final7 m c)

theorem tail19 (c : Dev nD) :
    Pipeline.afterTail₀ cfgs (dats m) 0 (V0 m) [hostOps1] c main_v19 = res19 m c := by
  unfold Pipeline.afterTail₀
  show StableHlo.after hostOps1 _ (Proc.devRef .tc main_v19) = _
  after_results
  rw [arr7]
  funext i
  show Ideal.div (Host.reduceAdd (F := Ideal) (O (FW m c)) (constant (F := Ideal) S_ .f32 0x00000000#32)
    reducesTo_S2x8x128_S_d0_1_2 h_S_ i) (Ideal.ofBits .f32 0x4C000000#32) = _
  rw [reduce_all, total_O]
  rfl

theorem tail21 (c : Dev nD) :
    Pipeline.afterTail₀ cfgs (dats m) 0 (V0 m) [hostOps1] c main_v21 = res21 m c := by
  unfold Pipeline.afterTail₀
  show StableHlo.after hostOps1 _ (Proc.devRef .tc main_v21) = _
  after_results
  rw [arr6, arr7]
  funext i
  show Ideal.div (Host.reduceAdd (F := Ideal) (O (FA m c)) (constant (F := Ideal) S_ .f32 0x00000000#32)
        reducesTo_S2x8x128_S_d0_1_2 h_S_ i) (Ideal.ofBits .f32 0x4C000000#32)
      + Ideal.ofBits .f32 0x3E19999A#32
        * Ideal.div (Host.reduceAdd (F := Ideal) (O (FW m c)) (constant (F := Ideal) S_ .f32 0x00000000#32)
            reducesTo_S2x8x128_S_d0_1_2 h_S_ i) (Ideal.ofBits .f32 0x4C000000#32) = _
  rw [reduce_all, reduce_all, total_O, total_O]
  rfl

/-- The run, read: both results at their functions of the arguments, the arguments unchanged. -/
theorem run : θ_run defs (onTc (τ := τ) (main (F := Ideal))) ⟨m, fun _ => 0, ρ⟩ fun r => ∀ c : Dev nD,
      r.2.mem ((c.tc : Thread nD τ).loc main_v21) = res21 m c
      ∧ r.2.mem ((c.tc : Thread nD τ).loc main_v19) = res19 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (tail21 m c),
      ((h c).2 main_v19 (Pipeline.mem_restRefs_of main_v19 (by decide) (by decide))).trans (tail19 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.lean ====
/-
  The claim: a fused physical-consistency loss kernel against its jnp reference, on the extended reals.

  Both programs return (total loss, physics loss) of predictions P, targets Tg, temperatures T and an adjacency matrix:
    physics loss = (1/2^25) · ∑_{b,z} softplus((T(b,z) − mean of T(b,·) over z's neighbours) · (P(b,z) − T(b,z))) · [z has a neighbour]
    total loss   = (1/2^25) · ∑_{b,z} smoothL1(P(b,z) − Tg(b,z)) + 0.15 · physics loss.
  The kernel accumulates folded column sums tile by tile into two [2, 8, 128] arrays that the host then adds up; the
  reference sums whole arrays, takes per-zone batch means and then the mean over zones. On the extended reals the two
  agree for every input: addition is a commutative monoid there (the tiling identity), a positive real factor
  distributes over finite sums, a quotient by a non-zero real is the product with its reciprocal, and the kernel's
  folded multiplier is NAMED the exact quotient (1/2)/β of the reference's own two literals. The precondition is never
  opened.

  The frames of the two kernel programs are the generated frame certificates; the reference's frame is its run with
  the results dropped; the one ledger entry is the named constant's statement.
-/
import proofs.«122916_j39651138077317_2_alg».proof.Defs
import proofs.«122916_j39651138077317_2_alg».proof.Proof.Gen.Kernel
import proofs.«122916_j39651138077317_2_alg».proof.Proof.Gen.Kernel.Skeleton
import proofs.«122916_j39651138077317_2_alg».proof.Proof.Gen.Kernel.Launch
import proofs.«122916_j39651138077317_2_alg».proof.Proof.Gen.Kernel.Points
import proofs.«122916_j39651138077317_2_alg».proof.Proof.Gen.Kernel.Frame
import proofs.«122916_j39651138077317_2_alg».proof.Proof.Gen.KernelIdeal
import proofs.«122916_j39651138077317_2_alg».proof.Proof.Gen.KernelIdeal.Skeleton
import proofs.«122916_j39651138077317_2_alg».proof.Proof.Gen.KernelIdeal.Launch
import proofs.«122916_j39651138077317_2_alg».proof.Proof.Gen.KernelIdeal.Points
import proofs.«122916_j39651138077317_2_alg».proof.Proof.Gen.KernelIdeal.Frame
import proofs.«122916_j39651138077317_2_alg».proof.Proof.Gen.ReferenceIdeal
import proofs.«122916_j39651138077317_2_alg».proof.Proof.Gen.Pre_finite_inputs
import proofs.«122916_j39651138077317_2_alg».proof.Proof.RefRunP
import proofs.«122916_j39651138077317_2_alg».proof.Proof.RefReadP
import proofs.«122916_j39651138077317_2_alg».proof.Proof.RefValue
import proofs.«122916_j39651138077317_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The ledger's one entry: the table gives the kernel's folded multiplier the value (1/2)/β, β = 5033165/2^24. -/
theorem preserves : Cert.preserves_Kernel_KernelIdeal :=
  IdealRules.named_const.statement Cert.KernelIdeal.κ "inv_2beta" .f32 0x3FD55555#32 ((8388608 / 5033165 : ℝ) : EReal) rfl

/-- Both programs end at `Spec.lossTotal` and `Spec.lossPhys` of arguments that agree. -/
theorem algebraic : Cert.algebraic_KernelIdeal_ReferenceIdeal := by
  intro m ρ m' ρ' _ hagree
  refine ⟨fun c => Cert.KernelIdeal.Result.res21 m c, fun c => Cert.KernelIdeal.Result.res19 m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v37_eq]
    funext i
    rw [Cert.ReferenceIdeal.RefValue.total_eq, (hagree c).1, (hagree c).2.1, (hagree c).2.2.1, (hagree c).2.2.2]
    rfl
  · rw [Cert.ReferenceIdeal.ReadP.val_main_v35_eq]
    funext i
    rw [Cert.ReferenceIdeal.RefValue.phys_eq, (hagree c).1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
